-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v10_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v10_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x768x64x64 : Shape := ⟨4, ![16, 768, 64, 64]⟩
abbrev S1024x768 : Shape := ⟨2, ![1024, 768]⟩
abbrev S_ : Shape := ⟨0, ![]⟩

class Facts : Prop where
  bcast_S_S16x768x64x64 : S_.BroadcastsInDim S16x768x64x64 (![] : Fin 0 → Fin S16x768x64x64.rank)
  reducesTo_S16x768x64x64_S_d0_1_2_3 : S16x768x64x64.ReducesTo [0, 1, 2, 3] S_
  h_S_ : 0 < S_.numel
  bcast_S_S1024x768 : S_.BroadcastsInDim S1024x768 (![] : Fin 0 → Fin S1024x768.rank)
  reducesTo_S1024x768_S_d0_1 : S1024x768.ReducesTo [0, 1] S_

variable [Facts]

def fn {F : FTy → Type} [FloatOps F] (main_arg0 : FVec F S16x768x64x64 .f32) (main_arg1 : FVec F S1024x768 .f32) : IVec S_ 1 :=
  let main_v0 : FVec F S16x768x64x64 .f32 := Host.absf main_arg0
  let main_cst : FVec F S_ .f32 := constant S_ .f32 0x7F800000#32
  let main_v1 : FVec F S16x768x64x64 .f32 := broadcastInDim S16x768x64x64 ![] bcast_S_S16x768x64x64 main_cst
  let main_v2 : IVec S16x768x64x64 1 := cmpf .olt main_v0 main_v1
  let main_c : IVec S_ 1 := constantI S_ 1 1#1
  let main_v3 : IVec S_ 1 := (fun x v => Host.reduce IntOp.andi x v reducesTo_S16x768x64x64_S_d0_1_2_3 h_S_) main_v2 main_c
  let main_v4 : FVec F S1024x768 .f32 := Host.absf main_arg1
  let main_cst_0 : FVec F S_ .f32 := constant S_ .f32 0x7F800000#32
  let main_v5 : FVec F S1024x768 .f32 := broadcastInDim S1024x768 ![] bcast_S_S1024x768 main_cst_0
  let main_v6 : IVec S1024x768 1 := cmpf .olt main_v4 main_v5
  let main_c_1 : IVec S_ 1 := constantI S_ 1 1#1
  let main_v7 : IVec S_ 1 := (fun x v => Host.reduce IntOp.andi x v reducesTo_S1024x768_S_d0_1 h_S_) main_v6 main_c_1
  let main_v8 : IVec S_ 1 := andi main_v3 main_v7
  main_v8
-- ==== Kernel.lean ====
abbrev S16x768x64x64 : Shape := ⟨4, ![16, 768, 64, 64]⟩
abbrev S1024x768 : Shape := ⟨2, ![1024, 768]⟩
abbrev S16x768x4096 : Shape := ⟨3, ![16, 768, 4096]⟩
abbrev S_ : Shape := ⟨0, ![]⟩
abbrev S1024 : Shape := ⟨1, ![1024]⟩
abbrev S1024x1 : Shape := ⟨2, ![1024, 1]⟩
abbrev S768x1024 : Shape := ⟨2, ![768, 1024]⟩
abbrev S16x4096x1024 : Shape := ⟨3, ![16, 4096, 1024]⟩
abbrev S1x768x512 : Shape := ⟨3, ![1, 768, 512]⟩
abbrev S1x512x1024 : Shape := ⟨3, ![1, 512, 1024]⟩
abbrev S768x512 : Shape := ⟨2, ![768, 512]⟩
abbrev S512 : Shape := ⟨1, ![512]⟩
abbrev S1x512 : Shape := ⟨2, ![1, 512]⟩
abbrev S512x1024 : Shape := ⟨2, ![512, 1024]⟩
abbrev S512x1 : Shape := ⟨2, ![512, 1]⟩

abbrev nBuf : Space → Nat
  | .hbm => 20
  | .vmem => 8
  | .smem => 0
  | _ => 0

abbrev bufTy : (tb : Table) → Fin (tcTables nBuf tb) → BufTy
  | .hbm, ⟨0, _⟩ => ⟨S16x768x64x64, .f32⟩
  | .hbm, ⟨1, _⟩ => ⟨S1024x768, .f32⟩
  | .hbm, ⟨2, _⟩ => ⟨S16x768x4096, .f32⟩
  | .hbm, ⟨3, _⟩ => ⟨S1024x768, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x768, .f32⟩
  | .hbm, ⟨12, _⟩ => ⟨S1024x768, .f32⟩
  | .hbm, ⟨13, _⟩ => ⟨S768x1024, .f32⟩
  | .hbm, ⟨14, _⟩ => ⟨S768x1024, .bf16⟩
  | .hbm, ⟨15, _⟩ => ⟨S768x1024, .f32⟩
  | .hbm, ⟨16, _⟩ => ⟨S768x1024, .bf16⟩
  | .hbm, ⟨17, _⟩ => ⟨S16x4096x1024, .f32⟩
  | .hbm, ⟨18, _⟩ => ⟨S16x768x4096, .f32⟩
  | .hbm, ⟨19, _⟩ => ⟨S16x768x64x64, .f32⟩
  | .local _ .vmem, ⟨0, _⟩ => ⟨S1x768x512, .f32⟩
  | .local _ .vmem, ⟨1, _⟩ => ⟨S1x768x512, .f32⟩
  | .local _ .vmem, ⟨2, _⟩ => ⟨S768x1024, .bf16⟩
  | .local _ .vmem, ⟨3, _⟩ => ⟨S768x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x768x512, .f32⟩
  | .local _ .vmem, ⟨7, _⟩ => ⟨S1x768x512, .f32⟩
  | _, _ => ⟨S16x768x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x768x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S16x768x64x64_S16x768x4096 : S16x768x64x64.ShapeCasts S16x768x4096
  reducesTo_S1024x768_S1024_d1 : S1024x768.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x768_0_1 : S1024x1.BroadcastsInDim S1024x768 (![0, 1] : Fin 2 → Fin S1024x768.rank)
  transposes_S1024x768_S768x1024_1_0 : S1024x768.Transposes [1, 0] S768x1024
  bitsLt_bf16_f32 : FTy.bits .bf16 < FTy.bits .f32
  inb_S1x768x512_S1x768x512_0_0_0 : ∀ a, (![0, 0, 0] : Fin 3 → Nat) a + S1x768x512.size a ≤ S1x768x512.size a
  h_S1x768x512 : 0 < S1x768x512.numel
  shapeCasts_S1x768x512_S768x512 : S1x768x512.ShapeCasts S768x512
  reduces_S768x512_S512 : S768x512.Reduces [0] S512
  shapeCasts_S512_S1x512 : S512.ShapeCasts S1x512
  broadcasts_S1x512_S768x512 : S1x512.Broadcasts S768x512
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  reduces_S512x1024_S512 : S512x1024.Reduces [1] S512
  shapeCasts_S512_S512x1 : S512.ShapeCasts S512x1
  broadcasts_S512x1_S512x1024 : S512x1.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  shapeCasts_S768x512_S1x768x512 : S768x512.ShapeCasts S1x768x512
  shapeCasts_S16x768x4096_S16x768x64x64 : S16x768x4096.ShapeCasts S16x768x64x64
  dot_S768x512_S768x1024_S512x1024_0_0_1_1_n_n_wf : DotDims.WF S768x512 S768x1024 S512x1024 [0] [0] [1] [1] [] []
  dot_S768x1024_S512x1024_S768x512_1_1_0_0_n_n_wf : DotDims.WF S768x1024 S512x1024 S768x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x768x512.size a ≤ S16x768x4096.size a
  hwx0_0 : ∀ i : grid0.Coords, EltTy.bits .f32 = 32 ∨ (Rect.block (s := S16x768x4096) S1x768x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x1024.size a ≤ S768x1024.size a
  hwx0_1 : ∀ i : grid0.Coords, EltTy.bits .bf16 = 32 ∨ (Rect.block (s := S768x1024) S768x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x1024.size a ≤ S768x1024.size a
  hwx0_2 : ∀ i : grid0.Coords, EltTy.bits .bf16 = 32 ∨ (Rect.block (s := S768x1024) S768x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S16x4096x1024.size a
  hwx0_3 : ∀ i : grid0.Coords, EltTy.bits .f32 = 32 ∨ (Rect.block (s := S16x4096x1024) S1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x768x512.size a ≤ S16x768x4096.size a
  hwx0_4 : ∀ i : grid0.Coords, EltTy.bits .f32 = 32 ∨ (Rect.block (s := S16x768x4096) S1x768x512.size (cc0_transform_4 i) (hinb0_4 i)).WholeWords (EltTy.packing .f32)

variable [Facts₀]

def dot_S768x512_S768x1024_S512x1024_0_0_1_1_n_n : DotDims S768x512 S768x1024 S512x1024 where
  lhsContracting := [0]
  rhsContracting := [0]
  lhsNonContracting := [1]
  rhsNonContracting := [1]
  lhsBatch := []
  rhsBatch := []
  wf := dot_S768x512_S768x1024_S512x1024_0_0_1_1_n_n_wf
def dot_S768x1024_S512x1024_S768x512_1_1_0_0_n_n : DotDims S768x1024 S512x1024 S768x512 where
  lhsContracting := [1]
  rhsContracting := [1]
  lhsNonContracting := [0]
  rhsNonContracting := [0]
  lhsBatch := []
  rhsBatch := []
  wf := dot_S768x1024_S512x1024_S768x512_1_1_0_0_n_n_wf

abbrev win0_0 : Pipeline.Window sig grid0 :=
  Pipeline.Window.ofSpec (Memref.whole main_v0) S1x768x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S768x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S768x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S1x512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S1x768x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x768x64x64 : Shape := ⟨4, ![16, 768, 64, 64]⟩
abbrev S1024x768 : Shape := ⟨2, ![1024, 768]⟩
abbrev S16x64x64x768 : Shape := ⟨4, ![16, 64, 64, 768]⟩
abbrev S16x4096x768 : Shape := ⟨3, ![16, 4096, 768]⟩
abbrev S_ : Shape := ⟨0, ![]⟩
abbrev S16x4096 : Shape := ⟨2, ![16, 4096]⟩
abbrev S16x4096x1 : Shape := ⟨3, ![16, 4096, 1]⟩
abbrev S1024 : Shape := ⟨1, ![1024]⟩
abbrev S1024x1 : Shape := ⟨2, ![1024, 1]⟩
abbrev S16x4096x1024 : Shape := ⟨3, ![16, 4096, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16x768x64x64, .f32⟩
  | .hbm, ⟨1, _⟩ => ⟨S1024x768, .f32⟩
  | .hbm, ⟨2, _⟩ => ⟨S16x64x64x768, .f32⟩
  | .hbm, ⟨3, _⟩ => ⟨S16x4096x768, .f32⟩
  | .hbm, ⟨4, _⟩ => ⟨S16x4096x768, .f32⟩
  | .hbm, ⟨5, _⟩ => ⟨S_, .f32⟩
  | .hbm, ⟨6, _⟩ => ⟨S16x4096, .f32⟩
  | .hbm, ⟨7, _⟩ => ⟨S16x4096x1, .f32⟩
  | .hbm, ⟨8, _⟩ => ⟨S16x4096x1, .f32⟩
  | .hbm, ⟨9, _⟩ => ⟨S_, .f32⟩
  | .hbm, ⟨10, _⟩ => ⟨S16x4096x1, .f32⟩
  | .hbm, ⟨11, _⟩ => ⟨S16x4096x1, .f32⟩
  | .hbm, ⟨12, _⟩ => ⟨S16x4096x768, .f32⟩
  | .hbm, ⟨13, _⟩ => ⟨S16x4096x768, .f32⟩
  | .hbm, ⟨14, _⟩ => ⟨S1024x768, .f32⟩
  | .hbm, ⟨15, _⟩ => ⟨S_, .f32⟩
  | .hbm, ⟨16, _⟩ => ⟨S1024, .f32⟩
  | .hbm, ⟨17, _⟩ => ⟨S1024x1, .f32⟩
  | .hbm, ⟨18, _⟩ => ⟨S1024x1, .f32⟩
  | .hbm, ⟨19, _⟩ => ⟨S_, .f32⟩
  | .hbm, ⟨20, _⟩ => ⟨S1024x1, .f32⟩
  | .hbm, ⟨21, _⟩ => ⟨S1024x1, .f32⟩
  | .hbm, ⟨22, _⟩ => ⟨S1024x768, .f32⟩
  | .hbm, ⟨23, _⟩ => ⟨S1024x768, .f32⟩
  | .hbm, ⟨24, _⟩ => ⟨S16x4096x1024, .f32⟩
  | .hbm, ⟨25, _⟩ => ⟨S_, .f32⟩
  | .hbm, ⟨26, _⟩ => ⟨S16x4096, .f32⟩
  | .hbm, ⟨27, _⟩ => ⟨S_, .f32⟩
  | .hbm, ⟨28, _⟩ => ⟨S16x4096, .f32⟩
  | .hbm, ⟨29, _⟩ => ⟨S16x4096, .f32⟩
  | .hbm, ⟨30, _⟩ => ⟨S16x4096x1, .f32⟩
  | .hbm, ⟨31, _⟩ => ⟨S16x4096x1024, .f32⟩
  | .hbm, ⟨32, _⟩ => ⟨S16x4096x1024, .f32⟩
  | .hbm, ⟨33, _⟩ => ⟨S16x4096x1024, .f32⟩
  | .hbm, ⟨34, _⟩ => ⟨S_, .f32⟩
  | .hbm, ⟨35, _⟩ => ⟨S16x4096, .f32⟩
  | .hbm, ⟨36, _⟩ => ⟨S16x4096x1, .f32⟩
  | .hbm, ⟨37, _⟩ => ⟨S16x4096x1024, .f32⟩
  | .hbm, ⟨38, _⟩ => ⟨S16x4096x1024, .f32⟩
  | .hbm, ⟨39, _⟩ => ⟨S16x4096x768, .f32⟩
  | .hbm, ⟨40, _⟩ => ⟨S16x64x64x768, .f32⟩
  | .hbm, ⟨41, _⟩ => ⟨S16x768x64x64, .f32⟩
  | _, _ => ⟨S16x768x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]

class Facts₀ : Prop where
  transposes_S16x768x64x64_S16x64x64x768_0_2_3_1 : S16x768x64x64.Transposes [0, 2, 3, 1] S16x64x64x768
  shapeCasts_S16x64x64x768_S16x4096x768 : S16x64x64x768.ShapeCasts S16x4096x768
  reducesTo_S16x4096x768_S16x4096_d2 : S16x4096x768.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x768_0_1_2 : S16x4096x1.BroadcastsInDim S16x4096x768 (![0, 1, 2] : Fin 3 → Fin S16x4096x768.rank)
  reducesTo_S1024x768_S1024_d1 : S1024x768.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x768_0_1 : S1024x1.BroadcastsInDim S1024x768 (![0, 1] : Fin 2 → Fin S1024x768.rank)
  reducesTo_S16x4096x1024_S16x4096_d2 : S16x4096x1024.ReducesTo [2] S16x4096
  bcast_S_S16x4096 : S_.BroadcastsInDim S16x4096 (![] : Fin 0 → Fin S16x4096.rank)
  bcast_S16x4096x1_S16x4096x1024_0_1_2 : S16x4096x1.BroadcastsInDim S16x4096x1024 (![0, 1, 2] : Fin 3 → Fin S16x4096x1024.rank)
  shapeCasts_S16x4096x768_S16x64x64x768 : S16x4096x768.ShapeCasts S16x64x64x768
  transposes_S16x64x64x768_S16x768x64x64_0_3_1_2 : S16x64x64x768.Transposes [0, 3, 1, 2] S16x768x64x64
  dot_S16x4096x768_S1024x768_S16x4096x1024_2_1_01_0_n_n_wf : DotDims.WF S16x4096x768 S1024x768 S16x4096x1024 [2] [1] [0, 1] [0] [] []
  dot_S16x4096x1024_S1024x768_S16x4096x768_2_0_01_1_n_n_wf : DotDims.WF S16x4096x1024 S1024x768 S16x4096x768 [2] [0] [0, 1] [1] [] []

variable [Facts₀]

def dot_S16x4096x768_S1024x768_S16x4096x1024_2_1_01_0_n_n : DotDims S16x4096x768 S1024x768 S16x4096x1024 where
  lhsContracting := [2]
  rhsContracting := [1]
  lhsNonContracting := [0, 1]
  rhsNonContracting := [0]
  lhsBatch := []
  rhsBatch := []
  wf := dot_S16x4096x768_S1024x768_S16x4096x1024_2_1_01_0_n_n_wf
def dot_S16x4096x1024_S1024x768_S16x4096x768_2_0_01_1_n_n : DotDims S16x4096x1024 S1024x768 S16x4096x768 where
  lhsContracting := [2]
  rhsContracting := [0]
  lhsNonContracting := [0, 1]
  rhsNonContracting := [1]
  lhsBatch := []
  rhsBatch := []
  wf := dot_S16x4096x1024_S1024x768_S16x4096x768_2_0_01_1_n_n_wf

class Facts : Prop extends Facts₀ where

variable [Facts]
-- ==== Proof.Spec.lean ====
/-
  Cosine-similarity memory attention, as plain functions on the extended reals.

  A query is a vector of 768 channels; the memory bank has 1024 rows of 768 channels.  Every vector is divided by its
  guarded Euclidean norm  max(sqrt(sum of squares), eps);  the score of a query against a memory row is the inner
  product of the two normalized vectors; the attention weights are the softmax of the 1024 scores (shifted by their
  maximum); the reconstruction of channel c is the attention-weighted sum of the raw memory entries of that channel.

  Both programs compute exactly these functions; they differ only in how the arrays are laid out (channel-major blocks
  of 512 positions against one position-major array) and in the order of two commutative products.  No law used here
  needs a finite argument: sums and products of extended reals commute and associate as they stand.
-/
import Idealize.ShloMosaic.PureOps.Ideal
import Idealize.ShloMosaic.PureOps.Ideal.Laws
import Idealize.ShloMosaic.Lib.ValueIdx

noncomputable section

open scoped BigOperators

namespace Cert.Attention

open Idealize.ShloMosaic Idealize.ShloMosaic.ValueIdx

/-- The norm guard, the single-precision word both programs spell. -/
abbrev eps : EReal := Ideal.ofBits .f32 0x2B8CBCCC#32
/-- The value a running maximum starts from. -/
abbrev negInf : EReal := Ideal.ofBits .f32 0xFF800000#32

/-- The guarded Euclidean norm of a 768-vector. -/
def gnorm (q : Fin 768 → EReal) : EReal := max (Ideal.sqrt (∑ c, q c * q c)) eps

/-- A 768-vector divided by its guarded norm. -/
def unit (q : Fin 768 → EReal) (c : Fin 768) : EReal := Ideal.div (q c) (gnorm q)

/-- Scores of a query against 1024 already-normalized memory rows, stored channel-major. -/
def scoreN (q : Fin 768 → EReal) (Mn : Fin 768 → Fin 1024 → EReal) (j : Fin 1024) : EReal :=
  ∑ c, unit q c * Mn c j

/-- The maximum of 1024 scores. -/
def rowMax (s : Fin 1024 → EReal) : EReal := (Finset.univ : Finset (Fin 1024)).fold max negInf s

/-- The softmax of 1024 scores, shifted by their maximum. -/
def softmax (s : Fin 1024 → EReal) (j : Fin 1024) : EReal :=
  Ideal.div (Ideal.exp (s j - rowMax s)) (∑ k, Ideal.exp (s k - rowMax s))

/-- Attention weights of a query over the memory rows. -/
def attnN (q : Fin 768 → EReal) (Mn : Fin 768 → Fin 1024 → EReal) (j : Fin 1024) : EReal := softmax (scoreN q Mn) j

/-- Channel `c` of the reconstruction: raw memory entries weighted by the attention. -/
def reconN (q : Fin 768 → EReal) (Mn Mt : Fin 768 → Fin 1024 → EReal) (c : Fin 768) : EReal :=
  ∑ j, Mt c j * attnN q Mn j

/-! ## The arrays -/

/-- The 768 channels of the input at batch `b` and flattened position `n = h·64 + w`. -/
def zcol (z : (⟨4, ![16, 768, 64, 64]⟩ : Shape).Idx → EReal) (b : Fin 16) (n : Fin 4096) (c : Fin 768) : EReal :=
  z (ix4 b c ⟨n.val / 64, by have := n.isLt; omega⟩ ⟨n.val % 64, by omega⟩)

/-- The memory bank transposed: channel-major. -/
def memT (mem : (⟨2, ![1024, 768]⟩ : Shape).Idx → EReal) (c : Fin 768) (j : Fin 1024) : EReal := mem (ix2 j c)

/-- The memory bank with every row normalized, channel-major. -/
def memN (mem : (⟨2, ![1024, 768]⟩ : Shape).Idx → EReal) (c : Fin 768) (j : Fin 1024) : EReal :=
  unit (fun c' => mem (ix2 j c')) c

/-- The attention weights as one array over (batch, position, memory row). -/
def attnArr (z : (⟨4, ![16, 768, 64, 64]⟩ : Shape).Idx → EReal) (mem : (⟨2, ![1024, 768]⟩ : Shape).Idx → EReal) :
    (⟨3, ![16, 4096, 1024]⟩ : Shape).Idx → EReal :=
  fun i => attnN (zcol z (i 0) (i 1)) (memN mem) (i 2)

/-- The reconstruction in the input's own layout (batch, channel, h, w). -/
def reconArr (z : (⟨4, ![16, 768, 64, 64]⟩ : Shape).Idx → EReal) (mem : (⟨2, ![1024, 768]⟩ : Shape).Idx → EReal) :
    (⟨4, ![16, 768, 64, 64]⟩ : Shape).Idx → EReal :=
  fun i => reconN (zcol z (i 0) ⟨(i 2).val * 64 + (i 3).val, by have h2 : (i 2).val < 64 := (i 2).isLt; have h3 : (i 3).val < 64 := (i 3).isLt; omega⟩)
    (memN mem) (memT mem) (i 1)

/-! ## One law of the maximum -/

/-- A running maximum is at least the value it started from. -/
theorem max_fold_max_self {ι : Type} (s : Finset ι) (a : EReal) (f : ι → EReal) :
    max a (s.fold max a f) = s.fold max a f := by
  induction s using Finset.cons_induction with
  | empty => simp
  | cons x s hx ih => rw [Finset.fold_cons, max_left_comm, ih]

end Cert.Attention

end
-- ==== Proof.Layout.lean ====
/-
  Small facts about re-laid arrays, read at an index given by its coordinates: a vector viewed as a one-column matrix,
  a one-column matrix repeated along its rows, and the sum or the maximum of a matrix along one of its two axes
  written over that axis's coordinate.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Attention

open Idealize.ShloMosaic Idealize.ShloMosaic.ValueIdx

variable {α : Type}

/-- A vector of length `a` viewed as an `a × 1` matrix reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` matrix repeated along its rows to `a × b` reads, at `(p, c)`, the one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `a × b` matrix down its columns, at column `p`: the sum over the rows `k` of entry `(k, p)`. -/
theorem add_axis0_apply {a b : ℕ} (x : FVec Ideal ⟨2, ![a, b]⟩ .f32) (h : (⟨2, ![a, b]⟩ : Shape).Reduces [0] ⟨1, ![b]⟩) (p : Fin b) :
    multiReduction .add [0] ⟨1, ![b]⟩ x 0x00000000#32 h (.inl rfl) rfl (ix1 p) = ∑ k : Fin a, x (ix2 k p) := by
  refine (Ideal.multiReduction_add_single x 0x00000000#32 h (.inl rfl) rfl (ix1 p)).trans ?_
  exact Finset.sum_congr rfl fun k _ => congrArg x (funext fun d => Fin.ext (by match d with | ⟨0, _⟩ => rfl | ⟨1, _⟩ => rfl))

/-- The sum of an `a × b` matrix along its rows, at row `p`: the sum over the columns `k` of entry `(p, k)`. -/
theorem add_axis1_apply {a b : ℕ} (x : FVec Ideal ⟨2, ![a, b]⟩ .f32) (h : (⟨2, ![a, b]⟩ : Shape).Reduces [1] ⟨1, ![a]⟩) (p : Fin a) :
    multiReduction .add [1] ⟨1, ![a]⟩ x 0x00000000#32 h (.inl rfl) rfl (ix1 p) = ∑ k : Fin b, x (ix2 p k) := by
  refine (Ideal.multiReduction_add_single x 0x00000000#32 h (.inl rfl) rfl (ix1 p)).trans ?_
  exact Finset.sum_congr rfl fun k _ => congrArg x (funext fun d => Fin.ext (by match d with | ⟨0, _⟩ => rfl | ⟨1, _⟩ => rfl))

/-- The maximum of an `a × b` matrix along its rows, at row `p`: the running maximum, from minus infinity, over the
    columns `k` of entry `(p, k)`. -/
theorem max_axis1_apply {a b : ℕ} (x : FVec Ideal ⟨2, ![a, b]⟩ .f32) (h : (⟨2, ![a, b]⟩ : Shape).Reduces [1] ⟨1, ![a]⟩) (p : Fin a) :
    multiReduction .maximumf [1] ⟨1, ![a]⟩ x 0xFF800000#32 h (.inl rfl) rfl (ix1 p)
      = (Finset.univ : Finset (Fin b)).fold max (Ideal.ofBits .f32 0xFF800000#32) (fun k => x (ix2 p k)) := by
  refine (Ideal.multiReduction_maximumf_single x 0xFF800000#32 h (.inl rfl) rfl (ix1 p)).trans ?_
  exact Finset.fold_congr fun k _ => congrArg x (funext fun d => Fin.ext (by match d with | ⟨0, _⟩ => rfl | ⟨1, _⟩ => rfl))

/-- The square root and the exponential of a vector, read at an index. -/
theorem sqrt_apply {s : Shape} {φ : FTy} (x : FVec Ideal s φ) (i : s.Idx) : sqrt x i = Ideal.sqrt (x i) := rfl
theorem exp_apply {s : Shape} {φ : FTy} (x : FVec Ideal s φ) (i : s.Idx) : exp x i = Ideal.exp (x i) := rfl

end Cert.Attention

end
-- ==== Proof.KernelBody.lean ====
/-
  What one grid point's body computes, read entry by entry.

  The body is handed a block of 512 positions (768 channels each), the normalized memory bank and the raw memory bank,
  both channel-major.  Its first result, at position `p` and memory row `j`, is the attention weight of the query made of
  the 768 channels at position `p`; its second result, at channel `c` and position `p`, is that query's reconstruction.
-/
import proofs.«121419_j54099408060744_2_alg».proof.Proof.Gen.KernelIdeal.Skeleton
import proofs.«121419_j54099408060744_2_alg».proof.Proof.Spec
import proofs.«121419_j54099408060744_2_alg».proof.Proof.Layout

noncomputable section

open scoped BigOperators

namespace Cert.KernelIdeal.Body

open Cert.KernelIdeal Cert.KernelIdeal.Gen Cert.Attention Idealize.ShloMosaic Idealize.ShloMosaic.ValueIdx

/-- The contraction of the scores: over the channel axis of both operands. -/
abbrev Dq := dot_S768x512_S768x1024_S512x1024_0_0_1_1_n_n
/-- The contraction of the reconstruction: over the memory-row axis of both operands. -/
abbrev Dr := dot_S768x1024_S512x1024_S768x512_1_1_0_0_n_n

/-- The operands' indices of the score product, coordinate by coordinate. -/
theorem Dq_lhs_1 (i : S512x1024.Idx) (q : Dq.contr.Idx) : (Dq.lhsIdx i q 1).val = (i 0).val := by
  unfold DotDims.lhsIdx
  rw [dif_neg (show ¬(1 : Fin S768x512.rank) ∈ Dq.lhsBatch by decide), dif_pos (show (1 : Fin S768x512.rank) ∈ Dq.lhsNonContracting by decide)]
  rfl
theorem Dq_lhs_0 (i : S512x1024.Idx) (q : Dq.contr.Idx) : (Dq.lhsIdx i q 0).val = (q ⟨0, by decide⟩).val :=
  Dq.lhsIdx_val_of_single rfl i q
theorem Dq_rhs_1 (i : S512x1024.Idx) (q : Dq.contr.Idx) : (Dq.rhsIdx i q 1).val = (i 1).val := by
  unfold DotDims.rhsIdx
  rw [dif_neg (show ¬(1 : Fin S768x1024.rank) ∈ Dq.rhsBatch by decide), dif_pos (show (1 : Fin S768x1024.rank) ∈ Dq.rhsNonContracting by decide)]
  rfl
theorem Dq_rhs_0 (i : S512x1024.Idx) (q : Dq.contr.Idx) : (Dq.rhsIdx i q 0).val = (q ⟨0, by decide⟩).val :=
  Dq.rhsIdx_val_of_single rfl i q

/-- The score product at position `p` and memory row `j`: the sum over the channels. -/
theorem scores_apply (l : FVec Ideal S768x512 .bf16) (r : FVec Ideal S768x1024 .bf16) (p : Fin 512) (j : Fin 1024) :
    matmul Dq none l r (constant S512x1024 .f32 0x00000000#32) (ix2 p j) = ∑ c : Fin 768, l (ix2 c p) * r (ix2 c j) := by
  refine (Ideal.matmul_constant_zero_apply Dq none l r (ix2 p j)).trans ?_
  rw [← Equiv.sum_comp (contrEquiv1 Dq 768 rfl rfl).symm]
  refine Finset.sum_congr rfl fun k _ => ?_
  have hk := contrEquiv1_symm_val Dq 768 rfl rfl k
  have el : Dq.lhsIdx (ix2 p j) ((contrEquiv1 Dq 768 rfl rfl).symm k) = ix2 k p := funext fun a => Fin.ext (by
    match a with
    | ⟨0, _⟩ => exact (Dq_lhs_0 _ _).trans hk
    | ⟨1, _⟩ => exact Dq_lhs_1 _ _)
  have er : Dq.rhsIdx (ix2 p j) ((contrEquiv1 Dq 768 rfl rfl).symm k) = ix2 k j := funext fun a => Fin.ext (by
    match a with
    | ⟨0, _⟩ => exact (Dq_rhs_0 _ _).trans hk
    | ⟨1, _⟩ => exact Dq_rhs_1 _ _)
  rw [el, er]

/-- The operands' indices of the reconstruction product, coordinate by coordinate. -/
theorem Dr_lhs_0 (i : S768x512.Idx) (q : Dr.contr.Idx) : (Dr.lhsIdx i q 0).val = (i 0).val := by
  unfold DotDims.lhsIdx
  rw [dif_neg (show ¬(0 : Fin S768x1024.rank) ∈ Dr.lhsBatch by decide), dif_pos (show (0 : Fin S768x1024.rank) ∈ Dr.lhsNonContracting by decide)]
  rfl
theorem Dr_lhs_1 (i : S768x512.Idx) (q : Dr.contr.Idx) : (Dr.lhsIdx i q 1).val = (q ⟨0, by decide⟩).val :=
  Dr.lhsIdx_val_of_single rfl i q
theorem Dr_rhs_0 (i : S768x512.Idx) (q : Dr.contr.Idx) : (Dr.rhsIdx i q 0).val = (i 1).val := by
  unfold DotDims.rhsIdx
  rw [dif_neg (show ¬(0 : Fin S512x1024.rank) ∈ Dr.rhsBatch by decide), dif_pos (show (0 : Fin S512x1024.rank) ∈ Dr.rhsNonContracting by decide)]
  rfl
theorem Dr_rhs_1 (i : S768x512.Idx) (q : Dr.contr.Idx) : (Dr.rhsIdx i q 1).val = (q ⟨0, by decide⟩).val :=
  Dr.rhsIdx_val_of_single rfl i q

/-- The reconstruction product at channel `c` and position `p`: the sum over the memory rows. -/
theorem recon_apply (l : FVec Ideal S768x1024 .bf16) (r : FVec Ideal S512x1024 .bf16) (c : Fin 768) (p : Fin 512) :
    matmul Dr none l r (constant S768x512 .f32 0x00000000#32) (ix2 c p) = ∑ j : Fin 1024, l (ix2 c j) * r (ix2 p j) := by
  refine (Ideal.matmul_constant_zero_apply Dr none l r (ix2 c p)).trans ?_
  rw [← Equiv.sum_comp (contrEquiv1 Dr 1024 rfl rfl).symm]
  refine Finset.sum_congr rfl fun k _ => ?_
  have hk := contrEquiv1_symm_val Dr 1024 rfl rfl k
  have el : Dr.lhsIdx (ix2 c p) ((contrEquiv1 Dr 1024 rfl rfl).symm k) = ix2 c k := funext fun a => Fin.ext (by
    match a with
    | ⟨0, _⟩ => exact Dr_lhs_0 _ _
    | ⟨1, _⟩ => exact (Dr_lhs_1 _ _).trans hk)
  have er : Dr.rhsIdx (ix2 c p) ((contrEquiv1 Dr 1024 rfl rfl).symm k) = ix2 p k := funext fun a => Fin.ext (by
    match a with
    | ⟨0, _⟩ => exact Dr_rhs_0 _ _
    | ⟨1, _⟩ => exact (Dr_rhs_1 _ _).trans hk)
  rw [el, er]

/-- The attention weights of the block: at position `p` and memory row `j`, the weight of the query at `p`. -/
theorem pay1_apply (v0 : Vec Ideal S1x768x512 .f32) (v11 : Vec Ideal S768x1024 .bf16) (p : Fin 512) (j : Fin 1024) :
    k0_pay1 v0 v11 (ix2 p j) = attnN (fun c => v0 (ix3 (0 : Fin 1) c p)) (fun c j' => v11 (ix2 c j')) j := by
  unfold k0_pay1
  simp only [divf_apply, exp_apply, subf_apply, broadcastTo_a1_ab_apply, shapeCast_a_a1_apply]
  rw [max_axis1_apply, add_axis1_apply]
  simp only [exp_apply, subf_apply, broadcastTo_a1_ab_apply, shapeCast_a_a1_apply]
  rw [max_axis1_apply]
  simp only [scores_apply, truncf_apply, divf_apply, broadcastTo_1b_ab_apply, maximumf_apply, sqrt_apply, shapeCast_a_1a_apply,
    shapeCast_self, broadcast_apply]
  rw [add_axis0_apply]
  simp only [mulf_apply, shapeCast_1ab_ab_apply]
  rfl

/-- The first result of the body, a block with a leading unit axis: the attention weights. -/
theorem pay2_apply (v0 : Vec Ideal S1x768x512 .f32) (v11 : Vec Ideal S768x1024 .bf16) (u : Fin 1) (p : Fin 512) (j : Fin 1024) :
    k0_pay2 v0 v11 (ix3 u p j) = attnN (fun c => v0 (ix3 (0 : Fin 1) c p)) (fun c j' => v11 (ix2 c j')) j := by
  unfold k0_pay2
  simp only [shapeCast_ab_1ab_apply]
  exact pay1_apply v0 v11 p j

/-- The second result of the body, a block with a leading unit axis: the reconstruction, channel by channel. -/
theorem pay3_apply (v0 : Vec Ideal S1x768x512 .f32) (v11 v27 : Vec Ideal S768x1024 .bf16) (u : Fin 1) (c : Fin 768) (p : Fin 512) :
    k0_pay3 v0 v11 v27 (ix3 u c p)
      = reconN (fun c' => v0 (ix3 (0 : Fin 1) c' p)) (fun c' j => v11 (ix2 c' j)) (fun c' j => v27 (ix2 c' j)) c := by
  unfold k0_pay3
  simp only [shapeCast_ab_1ab_apply, recon_apply, shapeCast_self, truncf_apply, pay1_apply]
  rfl

end Cert.KernelIdeal.Body

end
-- ==== Proof.KernelHost.lean ====
/-
  What the grid finds in its three input arrays.  Before the grid starts, the input is viewed with its two trailing
  axes merged into one position axis; the memory bank is normalized row by row, transposed to channel-major and handed
  over; and the raw memory bank is transposed to channel-major and handed over.  Read at coordinates, these are the
  specification's column of channels, normalized memory and transposed memory.
-/
import proofs.«121419_j54099408060744_2_alg».proof.Proof.Gen.KernelIdeal.Frame
import proofs.«121419_j54099408060744_2_alg».proof.Proof.Spec
import proofs.«121419_j54099408060744_2_alg».proof.Proof.Layout
import Idealize.ShloMosaic.Lib.StableHlo.Run

noncomputable section

open scoped BigOperators

namespace Cert.KernelIdeal.Host

open Cert.KernelIdeal Cert.KernelIdeal.Gen Cert.Attention Idealize.ShloMosaic Idealize.ShloMosaic.TcCoe Idealize.SL.Sem
open Idealize.ShloMosaic.StableHlo Idealize.ShloMosaic.ValueIdx

/-- The input with its two trailing axes merged. -/
def zFlat (x0 : FVec Ideal S16x768x64x64 .f32) : FVec Ideal S16x768x4096 .f32 :=
  shapeCast S16x768x4096 x0 shapeCasts_S16x768x64x64_S16x768x4096

/-- The memory bank, every row divided by its guarded norm, channel-major. -/
def memNormT (x1 : FVec Ideal S1024x768 .f32) : FVec Ideal S768x1024 .bf16 :=
  truncf .bf16 (transpose S768x1024 [1, 0] (Host.divf (F := Ideal) x1
    (broadcastInDim S1024x768 ![0, 1] bcast_S1024x1_S1024x768_0_1
      (maximumf (Host.sqrt (F := Ideal) (broadcastInDim S1024x1 ![0] bcast_S1024_S1024x1_0
          (Host.reduceAdd (F := Ideal) (mulf x1 x1) (constant (F := Ideal) S_ .f32 0x00000000#32) reducesTo_S1024x768_S1024_d1 h_S_)))
        (broadcastInDim S1024x1 ![] bcast_S_S1024x1 (constant (F := Ideal) S_ .f32 0x2B8CBCCC#32)))))
    transposes_S1024x768_S768x1024_1_0) bitsLt_bf16_f32

/-- The raw memory bank, channel-major. -/
def memRawT (x1 : FVec Ideal S1024x768 .f32) : FVec Ideal S768x1024 .bf16 :=
  truncf .bf16 (transpose S768x1024 [1, 0] x1 transposes_S1024x768_S768x1024_1_0) bitsLt_bf16_f32

/-- Merging the trailing axes sends position `n` to `(n / 64, n % 64)`. -/
theorem zFlat_apply (x0 : FVec Ideal S16x768x64x64 .f32) (b : Fin 16) (c : Fin 768) (n : Fin 4096) :
    zFlat x0 (ix3 b c n) = zcol x0 b n c := by
  unfold zFlat zcol
  refine shapeCast_apply x0 _ _ _ ?_
  rw [Shape.rowMajor_val_four, Shape.rowMajor_val_three]
  have hn := n.isLt
  show ((b.val * 768 + c.val) * 64 + n.val / 64) * 64 + n.val % 64 = (b.val * 768 + c.val) * 4096 + n.val
  omega

theorem memRawT_apply (x1 : FVec Ideal S1024x768 .f32) (c : Fin 768) (j : Fin 1024) :
    memRawT x1 (ix2 c j) = memT x1 c j := by
  unfold memRawT memT
  rw [truncf_apply, transpose_ix2_apply]

/-- The sum of the squares of one memory row. -/
theorem rowSumSq (x1 : FVec Ideal S1024x768 .f32) (j : Fin 1024) :
    Host.reduceAdd (F := Ideal) (mulf x1 x1) (constant (F := Ideal) S_ .f32 0x00000000#32) reducesTo_S1024x768_S1024_d1 h_S_ (ix1 j)
      = ∑ c' : Fin 768, x1 (ix2 j c') * x1 (ix2 j c') := by
  simp only [Host.reduceAdd, Ideal.hostReduceAdd_def]
  rw [Ideal.hostReduceAdd_single reducesTo_S1024x768_S1024_d1 (by decide)]
  rw [constant_apply, Ideal.ofBits_zero_f32, zero_add]
  exact Finset.sum_congr rfl fun k _ => congrArg (fun i => x1 i * x1 i)
    (funext fun a => Fin.ext (by match a with | ⟨0, _⟩ => rfl | ⟨1, _⟩ => rfl))

/-- The three broadcasts of the normalization, read at coordinates. -/
theorem bcastRow (y : FVec Ideal S1024x1 .f32) (j : Fin 1024) (c : Fin 768) :
    broadcastInDim S1024x768 ![0, 1] bcast_S1024x1_S1024x768_0_1 y (ix2 j c) = y (ix2 j (0 : Fin 1)) :=
  broadcastInDim_apply _ bcast_S1024x1_S1024x768_0_1 y (ix2 j c) (ix2 j (0 : Fin 1)) (fun a => match a with
    | ⟨0, _⟩ => by show j.val = if (1024 : Nat) = 1 then 0 else j.val; rw [if_neg (by decide)]
    | ⟨1, _⟩ => by show 0 = if (1 : Nat) = 1 then 0 else c.val; rw [if_pos rfl])
theorem bcastCol (y : FVec Ideal S1024 .f32) (j : Fin 1024) (u : Fin 1) :
    broadcastInDim S1024x1 ![0] bcast_S1024_S1024x1_0 y (ix2 j u) = y (ix1 j) :=
  broadcastInDim_apply _ bcast_S1024_S1024x1_0 y (ix2 j u) (ix1 j) (fun a => match a with
    | ⟨0, _⟩ => by show j.val = if (1024 : Nat) = 1 then 0 else j.val; rw [if_neg (by decide)])
theorem bcastScalar (y : FVec Ideal S_ .f32) (j : Fin 1024) (u : Fin 1) :
    broadcastInDim S1024x1 ![] bcast_S_S1024x1 y (ix2 j u) = y ix0 :=
  broadcastInDim_apply _ bcast_S_S1024x1 y (ix2 j u) ix0 (fun a => a.elim0)

theorem memNormT_apply (x1 : FVec Ideal S1024x768 .f32) (c : Fin 768) (j : Fin 1024) :
    memNormT x1 (ix2 c j) = memN x1 c j := by
  unfold memNormT memN unit gnorm
  rw [truncf_apply, transpose_ix2_apply]
  simp only [Host.divf, Ideal.hostDivf_def]
  rw [bcastRow, maximumf_apply, bcastScalar]
  simp only [Host.sqrt, Ideal.hostUnary_sqrt_def]
  rw [bcastCol, rowSumSq, constant_apply]

variable (m : (ℓ : Loc nD τ sig) → Buf (Elt Ideal) ℓ)

/-- The arrays as the grid finds them. -/
theorem V_v0 (c : Dev nD) : (V m c main_v0 : S16x768x4096.Idx → EReal) = zFlat (m ((c : Thread nD τ).loc main_arg0)) := by
  dsimp only [V, V0]
  simp only [hostOps0, hostOps0_1, hostOps0_2, List.flatten_cons, List.flatten_nil, List.append_nil, List.cons_append, List.nil_append]
  after_results
  rfl

theorem V_v7 (c : Dev nD) : (V m c main_v7 : S768x1024.Idx → EReal) = memNormT (m ((c : Thread nD τ).loc main_arg1)) := by
  dsimp only [V, V0]
  simp only [hostOps0, hostOps0_1, hostOps0_2, List.flatten_cons, List.flatten_nil, List.append_nil, List.cons_append, List.nil_append]
  after_results
  rfl

theorem V_v9 (c : Dev nD) : (V m c main_v9 : S768x1024.Idx → EReal) = memRawT (m ((c : Thread nD τ).loc main_arg1)) := by
  dsimp only [V, V0]
  simp only [hostOps0, hostOps0_1, hostOps0_2, List.flatten_cons, List.flatten_nil, List.append_nil, List.cons_append, List.nil_append]
  after_results
  rfl

end Cert.KernelIdeal.Host

end
-- ==== Proof.KernelBlocks.lean ====
/-
  From blocks to whole arrays.  Grid point (b, k) reads the 512 positions k·512 … k·512+511 of batch b and the two
  whole memory arrays, and writes back the attention weights of those positions and their reconstruction.  Every entry
  of either result array lies in exactly the block of the point (b, n / 512), so after the grid the attention array is
  the specification's attention array and the reconstruction array is the specification's reconstruction, position-flat.
-/
import proofs.«121419_j54099408060744_2_alg».proof.Proof.Gen.KernelIdeal.Frame
import proofs.«121419_j54099408060744_2_alg».proof.Proof.KernelBody
import proofs.«121419_j54099408060744_2_alg».proof.Proof.KernelHost
import Idealize.ShloMosaic.Lib.Pipeline.Value

noncomputable section

open scoped BigOperators

namespace Cert.KernelIdeal.Blocks

open Cert.KernelIdeal Cert.KernelIdeal.Gen Cert.KernelIdeal.Body Cert.KernelIdeal.Host Cert.Attention
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The reconstruction with the position axis flat: (batch, channel, position). -/
def reconFlat (z : (⟨4, ![16, 768, 64, 64]⟩ : Shape).Idx → EReal) (mem : (⟨2, ![1024, 768]⟩ : Shape).Idx → EReal) :
    (⟨3, ![16, 768, 4096]⟩ : Shape).Idx → EReal :=
  fun i => reconN (zcol z (i 0) (i 2)) (memN mem) (memT mem) (i 1)

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices of the five windows at grid point `t` = (t / 8, t % 8), decided over the 128 points. -/
theorem idx_facts : ∀ t : Fin cfg0.N,
    win0_0.index t (0 : Fin 3) = t.val / 8 ∧ win0_0.index t (1 : Fin 3) = 0 ∧ win0_0.index t (2 : Fin 3) = t.val % 8
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 8 ∧ win0_3.index t (1 : Fin 3) = t.val % 8 ∧ win0_3.index t (2 : Fin 3) = 0
    ∧ win0_4.index t (0 : Fin 3) = t.val / 8 ∧ win0_4.index t (1 : Fin 3) = 0 ∧ win0_4.index t (2 : Fin 3) = t.val % 8 :=
  (by decide +kernel : ∀ t : Fin grid0.N, _)

/-- The grid has 128 points. -/
theorem t_lt (t : Fin cfg0.N) : t.val < 128 := lt_of_lt_of_eq t.isLt N_0

/-- The input block at point `t`: channel `c'` of position `(t % 8)·512 + p` of batch `t / 8`. -/
theorem iblk0_apply (c : Dev nD) (t : Fin cfg0.N) (c' : Fin 768) (p : Fin 512) :
    iblk m c 0 t (ix3 (0 : Fin 1) c' p)
      = zcol (m ((c : Thread nD τ).loc main_arg0)) ⟨t.val / 8, by have := t_lt t; omega⟩
          ⟨t.val % 8 * 512 + p.val, by have := p.isLt; omega⟩ c' := by
  obtain ⟨e0, e1, e2, -⟩ := idx_facts t
  show V m c main_v0 (((cfg0.win 0).blk t).view.emb (ix3 (0 : Fin 1) c' p)) = _
  rw [V_v0, ← zFlat_apply]
  refine congrArg _ (funext fun a => Fin.ext ?_)
  match a with
  | ⟨0, _⟩ => show win0_0.index t (0 : Fin 3) * 1 + 1 * 0 = t.val / 8; omega
  | ⟨1, _⟩ => show win0_0.index t (1 : Fin 3) * 768 + 1 * c'.val = c'.val; omega
  | ⟨2, _⟩ => show win0_0.index t (2 : Fin 3) * 512 + 1 * p.val = t.val % 8 * 512 + p.val; omega

/-- The normalized memory, whole at every point. -/
theorem iblk1_apply (c : Dev nD) (t : Fin cfg0.N) (c' : Fin 768) (j : Fin 1024) :
    iblk m c 1 t (ix2 c' j) = memN (m ((c : Thread nD τ).loc main_arg1)) c' j := by
  obtain ⟨-, -, -, e0, e1, -⟩ := idx_facts t
  show V m c main_v7 (((cfg0.win 1).blk t).view.emb (ix2 c' j)) = _
  rw [V_v7, ← memNormT_apply]
  refine congrArg _ (funext fun a => Fin.ext ?_)
  match a with
  | ⟨0, _⟩ => show win0_1.index t (0 : Fin 2) * 768 + 1 * c'.val = c'.val; omega
  | ⟨1, _⟩ => show win0_1.index t (1 : Fin 2) * 1024 + 1 * j.val = j.val; omega

/-- The raw memory, whole at every point. -/
theorem iblk2_apply (c : Dev nD) (t : Fin cfg0.N) (c' : Fin 768) (j : Fin 1024) :
    iblk m c 2 t (ix2 c' j) = memT (m ((c : Thread nD τ).loc main_arg1)) c' j := by
  obtain ⟨-, -, -, -, -, e0, e1, -⟩ := idx_facts t
  show V m c main_v9 (((cfg0.win 2).blk t).view.emb (ix2 c' j)) = _
  rw [V_v9, ← memRawT_apply]
  refine congrArg _ (funext fun a => Fin.ext ?_)
  match a with
  | ⟨0, _⟩ => show win0_2.index t (0 : Fin 2) * 768 + 1 * c'.val = c'.val; omega
  | ⟨1, _⟩ => show win0_2.index t (1 : Fin 2) * 1024 + 1 * j.val = j.val; omega

/-! ## One point's results, entry by entry -/

/-- The attention block of point (b, k): its entry (p, j) is the attention array at (b, k·512 + p, j). -/
theorem point3 (x0 : Vec Ideal S1x768x512 .f32) (x1 : Vec Ideal S768x1024 .bf16)
    (z : FVec Ideal S16x768x64x64 .f32) (mem : FVec Ideal S1024x768 .f32) (b : Fin 16) (k : Fin 8)
    (h0 : ∀ (c' : Fin 768) (p : Fin 512), x0 (ix3 (0 : Fin 1) c' p)
      = zcol z b ⟨k.val * 512 + p.val, by have := p.isLt; have := k.isLt; omega⟩ c')
    (h1 : ∀ (c' : Fin 768) (j : Fin 1024), x1 (ix2 c' j) = memN mem c' j)
    (y : S1x512x1024.Idx) (i : S16x4096x1024.Idx)
    (hi0 : (i 0).val = b.val) (hi1 : (i 1).val = k.val * 512 + (y 1).val) (hi2 : (i 2).val = (y 2).val) :
    k0_pay2 x0 x1 y = attnArr z mem i := by
  obtain ⟨u, p, j, rfl⟩ : ∃ (u : Fin 1) (p : Fin 512) (j : Fin 1024), y = ix3 u p j := ⟨y 0, y 1, y 2, eq_ix3 y⟩
  rw [pay2_apply]
  unfold attnArr
  have eb : i 0 = b := Fin.ext hi0
  have en : i 1 = (⟨k.val * 512 + p.val, by have := p.isLt; have := k.isLt; omega⟩ : Fin 4096) := Fin.ext hi1
  have ej : i 2 = j := Fin.ext hi2
  rw [eb, en, ej]
  exact congrArg₂ (fun q M => attnN q M j) (funext fun c' => h0 c' p) (funext fun c' => funext fun j' => h1 c' j')

/-- The reconstruction block of point (b, k): its entry (c, p) is the flat reconstruction at (b, c, k·512 + p). -/
theorem point4 (x0 : Vec Ideal S1x768x512 .f32) (x1 x2 : Vec Ideal S768x1024 .bf16)
    (z : FVec Ideal S16x768x64x64 .f32) (mem : FVec Ideal S1024x768 .f32) (b : Fin 16) (k : Fin 8)
    (h0 : ∀ (c' : Fin 768) (p : Fin 512), x0 (ix3 (0 : Fin 1) c' p)
      = zcol z b ⟨k.val * 512 + p.val, by have := p.isLt; have := k.isLt; omega⟩ c')
    (h1 : ∀ (c' : Fin 768) (j : Fin 1024), x1 (ix2 c' j) = memN mem c' j)
    (h2 : ∀ (c' : Fin 768) (j : Fin 1024), x2 (ix2 c' j) = memT mem c' j)
    (y : S1x768x512.Idx) (i : S16x768x4096.Idx)
    (hi0 : (i 0).val = b.val) (hi1 : (i 1).val = (y 1).val) (hi2 : (i 2).val = k.val * 512 + (y 2).val) :
    k0_pay3 x0 x1 x2 y = reconFlat z mem i := by
  obtain ⟨u, c, p, rfl⟩ : ∃ (u : Fin 1) (c : Fin 768) (p : Fin 512), y = ix3 u c p := ⟨y 0, y 1, y 2, eq_ix3 y⟩
  rw [pay3_apply]
  unfold reconFlat
  have eb : i 0 = b := Fin.ext hi0
  have ec : i 1 = c := Fin.ext hi1
  have en : i 2 = (⟨k.val * 512 + p.val, by have := p.isLt; have := k.isLt; omega⟩ : Fin 4096) := Fin.ext hi2
  rw [eb, ec, en]
  have e0 : (fun c' => x0 (ix3 (0 : Fin 1) c' p)) = zcol z b ⟨k.val * 512 + p.val, by have := p.isLt; have := k.isLt; omega⟩ :=
    funext fun c' => h0 c' p
  have e1 : (fun c' j' => x1 (ix2 c' j')) = memN mem := funext fun c' => funext fun j' => h1 c' j'
  have e2 : (fun c' j' => x2 (ix2 c' j')) = memT mem := funext fun c' => funext fun j' => h2 c' j'
  rw [e0, e1, e2]

/-! ## What each point writes back -/

theorem flushed3_eq (c : Dev nD) (t : Fin cfg0.N) :
    (dats m 0 c).flushed 3 t = ((cfg0.win 3).blk t).view.read (Elt Ideal)
      (attnArr (m ((c : Thread nD τ).loc main_arg0)) (m ((c : Thread nD τ).loc main_arg1))) := by
  show (cfg0.win 3).cut (grid0.coords t) ((dats m 0 c).after 3 t) = _
  rw [after0_3]
  unfold out0_3
  rw [View.canon_unit_zero hz3]
  simp only [View.ld_unit_zero (S := S1x768x512) hz3, View.ld_unit_zero (S := S768x1024) hz2]
  obtain ⟨-, -, -, -, -, -, -, e0, e1, e2, -⟩ := idx_facts t
  have ht := t_lt t
  funext y
  have y0 : (y 0).val < 1 := (y 0).isLt
  exact point3 (iblk m c 0 t) (iblk m c 1 t) (m ((c : Thread nD τ).loc main_arg0)) (m ((c : Thread nD τ).loc main_arg1))
    ⟨t.val / 8, by omega⟩ ⟨t.val % 8, by omega⟩ (fun c' p => iblk0_apply m c t c' p) (fun c' j => iblk1_apply m c t c' j) y _
    (by show win0_3.index t (0 : Fin 3) * 1 + 1 * (y 0).val = t.val / 8; omega)
    (by show win0_3.index t (1 : Fin 3) * 512 + 1 * (y 1).val = t.val % 8 * 512 + (y 1).val; omega)
    (by show win0_3.index t (2 : Fin 3) * 1024 + 1 * (y 2).val = (y 2).val; omega)

theorem flushed4_eq (c : Dev nD) (t : Fin cfg0.N) :
    (dats m 0 c).flushed 4 t = ((cfg0.win 4).blk t).view.read (Elt Ideal)
      (reconFlat (m ((c : Thread nD τ).loc main_arg0)) (m ((c : Thread nD τ).loc main_arg1))) := by
  show (cfg0.win 4).cut (grid0.coords t) ((dats m 0 c).after 4 t) = _
  rw [after0_4]
  unfold out0_4
  rw [View.canon_unit_zero hz3]
  simp only [View.ld_unit_zero (S := S1x768x512) hz3, View.ld_unit_zero (S := S768x1024) hz2]
  obtain ⟨-, -, -, -, -, -, -, -, -, -, e0, e1, e2⟩ := idx_facts t
  have ht := t_lt t
  funext y
  have y0 : (y 0).val < 1 := (y 0).isLt
  exact point4 (iblk m c 0 t) (iblk m c 1 t) (iblk m c 2 t) (m ((c : Thread nD τ).loc main_arg0)) (m ((c : Thread nD τ).loc main_arg1))
    ⟨t.val / 8, by omega⟩ ⟨t.val % 8, by omega⟩ (fun c' p => iblk0_apply m c t c' p) (fun c' j => iblk1_apply m c t c' j)
    (fun c' j => iblk2_apply m c t c' j) y _
    (by show win0_4.index t (0 : Fin 3) * 1 + 1 * (y 0).val = t.val / 8; omega)
    (by show win0_4.index t (1 : Fin 3) * 768 + 1 * (y 1).val = (y 1).val; omega)
    (by show win0_4.index t (2 : Fin 3) * 512 + 1 * (y 2).val = t.val % 8 * 512 + (y 2).val; omega)

/-! ## Every entry of a result array lies in some point's block -/

theorem mem_blk3 (t : Fin cfg0.N) (i : S16x4096x1024.Idx) :
    i ∈ ((cfg0.win 3).blk t).view.set ↔ ∀ a : Fin 3, win0_3.index t a * S1x512x1024.size a ≤ (i a).val
      ∧ (i a).val < win0_3.index t a * S1x512x1024.size a + S1x512x1024.size a := by
  show i ∈ ((View.whole main_v10_0).slice (win0_3.rect t)).set ↔ _
  rw [View.set_slice_whole, Rect.mem_set_unit]
  exact Iff.rfl

theorem mem_blk4 (t : Fin cfg0.N) (i : S16x768x4096.Idx) :
    i ∈ ((cfg0.win 4).blk t).view.set ↔ ∀ a : Fin 3, win0_4.index t a * S1x768x512.size a ≤ (i a).val
      ∧ (i a).val < win0_4.index t a * S1x768x512.size a + S1x768x512.size a := by
  show i ∈ ((View.whole main_v10_1).slice (win0_4.rect t)).set ↔ _
  rw [View.set_slice_whole, Rect.mem_set_unit]
  exact Iff.rfl

/-- The attention entry (b, n, j) is in the block of point (b, n / 512). -/
theorem cover3 (i : S16x4096x1024.Idx) :
    ∃ t : Fin cfg0.N, (cfg0.win 3).flush t = true ∧ i ∈ ((cfg0.win 3).blk t).view.set := by
  have h0 : (i 0).val < 16 := (i 0).isLt
  have h1 : (i 1).val < 4096 := (i 1).isLt
  have h2 : (i 2).val < 1024 := (i 2).isLt
  obtain ⟨t, tv⟩ : ∃ t : Fin cfg0.N, t.val = (i 0).val * 8 + (i 1).val / 512 :=
    ⟨⟨(i 0).val * 8 + (i 1).val / 512, lt_of_lt_of_eq (by omega : (i 0).val * 8 + (i 1).val / 512 < 128) N_0.symm⟩, rfl⟩
  obtain ⟨-, -, -, -, -, -, -, e0, e1, e2, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- The reconstruction entry (b, c, n) is in the block of point (b, n / 512). -/
theorem cover4 (i : S16x768x4096.Idx) :
    ∃ t : Fin cfg0.N, (cfg0.win 4).flush t = true ∧ i ∈ ((cfg0.win 4).blk t).view.set := by
  have h0 : (i 0).val < 16 := (i 0).isLt
  have h1 : (i 1).val < 768 := (i 1).isLt
  have h2 : (i 2).val < 4096 := (i 2).isLt
  obtain ⟨t, tv⟩ : ∃ t : Fin cfg0.N, t.val = (i 0).val * 8 + (i 2).val / 512 :=
    ⟨⟨(i 0).val * 8 + (i 2).val / 512, lt_of_lt_of_eq (by omega : (i 0).val * 8 + (i 2).val / 512 < 128) N_0.symm⟩, rfl⟩
  obtain ⟨-, -, -, -, -, -, -, -, -, -, e0, e1, e2⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 768 ≤ (i 1).val ∧ (i 1).val < win0_4.index t (1 : Fin 3) * 768 + 768; omega
  | ⟨2, _⟩ => show win0_4.index t (2 : Fin 3) * 512 ≤ (i 2).val ∧ (i 2).val < win0_4.index t (2 : Fin 3) * 512 + 512; omega

/-! ## The two result arrays after the grid -/

theorem final3 (c : Dev nD) : (dats m 0 c).arrAt 3 cfg0.N
    = attnArr (m ((c : Thread nD τ).loc main_arg0)) (m ((c : Thread nD τ).loc main_arg1)) :=
  (dats m 0 c).arrAt_eq_of_cover 3 _ (fun t _ => flushed3_eq m c t) cover3

theorem final4 (c : Dev nD) : (dats m 0 c).arrAt 4 cfg0.N
    = reconFlat (m ((c : Thread nD τ).loc main_arg0)) (m ((c : Thread nD τ).loc main_arg1)) :=
  (dats m 0 c).arrAt_eq_of_cover 4 _ (fun t _ => flushed4_eq m c t) cover4

end Cert.KernelIdeal.Blocks

end
-- ==== Proof.KernelRun.lean ====
/-
  The whole kernel program.  After the grid, the attention array is a result as it stands, and the flat reconstruction
  is viewed with its position axis split back into (h, w): position n = h·64 + w.  So every run ends with the two
  results at the specification's arrays of the two arguments, and the arguments as they were.
-/
import proofs.«121419_j54099408060744_2_alg».proof.Proof.KernelBlocks
import Idealize.ShloMosaic.Lib.StableHlo.Run

noncomputable section

open scoped BigOperators

namespace Cert.KernelIdeal.Run

open Cert.KernelIdeal Cert.KernelIdeal.Gen Cert.KernelIdeal.Blocks Cert.Attention
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- Splitting the position axis of the flat reconstruction gives the reconstruction in the input's layout. -/
theorem split_reconFlat (z : FVec Ideal S16x768x64x64 .f32) (mem : FVec Ideal S1024x768 .f32) :
    shapeCast S16x768x64x64 (reconFlat z mem) shapeCasts_S16x768x4096_S16x768x64x64 = reconArr z mem := by
  funext i
  obtain ⟨b, ch, h, w, rfl⟩ : ∃ (b : Fin 16) (ch : Fin 768) (h w : Fin 64), i = ix4 b ch h w := ⟨i 0, i 1, i 2, i 3, eq_ix4 i⟩
  have hh := h.isLt; have hw := w.isLt
  refine (shapeCast_apply _ _ (ix4 b ch h w) (ix3 b ch (⟨h.val * 64 + w.val, by omega⟩ : Fin 4096)) ?_).trans ?_
  · rw [Shape.rowMajor_val_three, Shape.rowMajor_val_four]
    show (b.val * 768 + ch.val) * 4096 + (h.val * 64 + w.val) = ((b.val * 768 + ch.val) * 64 + h.val) * 64 + w.val
    omega
  · rfl

/-- The reconstruction result: the host's view of the grid's second array. -/
theorem tail_v11 (c : Dev nD) :
    (Pipeline.afterTail₀ cfgs (dats m) 0 (V0 m) [hostOps1] c main_v11 : S16x768x64x64.Idx → EReal)
      = reconArr (m ((c : Thread nD τ).loc main_arg0)) (m ((c : Thread nD τ).loc main_arg1)) := by
  have hX : Pipeline.withArrays (cfgs 0).spec c (V0 m c) (fun w => (dats m 0 c).arrAt w (cfgs 0).N) (Proc.devRef .tc main_v10_1)
      = reconFlat (m ((c : Thread nD τ).loc main_arg0)) (m ((c : Thread nD τ).loc main_arg1)) :=
    (Pipeline.withArrays_arr spec0 launch0.win.arr_inj c _ _ 4).trans (final4 m c)
  unfold Pipeline.afterTail₀
  show StableHlo.after hostOps1 _ (Proc.devRef .tc main_v11) = _
  after_results
  rw [hX]
  exact split_reconFlat _ _

/-- THE KERNEL'S RUN: both results at the specification's arrays, the arguments unchanged. -/
theorem run : θ_run defs (onTc (τ := τ) (main (F := Ideal))) ⟨m, fun _ => 0, ρ⟩ fun r => ∀ c : Dev nD,
      r.2.mem ((c.tc : Thread nD τ).loc main_v11)
        = reconArr (m ((c.tc : Thread nD τ).loc main_arg0)) (m ((c.tc : Thread nD τ).loc main_arg1))
      ∧ r.2.mem ((c.tc : Thread nD τ).loc main_v10_0)
        = attnArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v11 (Pipeline.mem_restRefs_of main_v11 (by decide) (by decide))).trans (tail_v11 m c),
     ((h c).1 3).trans (final3 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Run

end
-- ==== Proof.RefValue.lean ====
/-
  The reference program, stage by stage, is the specification's cosine-similarity memory attention.

  Each stage is read at explicit coordinates (batch b, flattened position n = h·64 + w, channel c, memory row j):
  the transposed and reshaped input is the column of 768 channels at (b, n); the sum of squares starts from zero, so
  the guarded norm is max(sqrt(sum of squares), eps); the score is the inner product of the two normalized vectors;
  the row maximum is a fold of max from −∞ over the 1024 memory rows, and the further maximum with −∞ the reference takes
  changes nothing; the softmax divides the shifted exponential by the sum of the shifted exponentials; the
  reconstruction multiplies attention by memory where the specification multiplies memory by attention, which
  commutes; and the final reshape and transpose send position n = h·64 + w, channel c to (b, c, h, w).
-/
import proofs.«121419_j54099408060744_2_alg».proof.Proof.Gen.ReferenceIdeal.Read
import proofs.«121419_j54099408060744_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Attention

/-- The input as the reference's reshaped stage reads it: batch, flattened position, channel. -/
theorem v1_at (x0 : (⟨S16x768x64x64, .f32⟩ : BufTy).Contents (Elt Ideal)) (b : Fin 16) (n : Fin 4096) (c : Fin 768) :
    val_main_v1 (F := Ideal) x0 (ix3 b n c) = zcol x0 b n c := by
  rw [val_main_v1_apply, val_main_v0_apply]
  unfold zcol
  refine congrArg x0 (funext fun a => Fin.ext ?_)
  have hb := b.isLt; have hn := n.isLt; have hc := c.isLt
  match a with
  | ⟨0, _⟩ => show ((b.val * 4096 + n.val) * 768 + c.val) / 3145728 = b.val; omega
  | ⟨1, _⟩ => show ((b.val * 4096 + n.val) * 768 + c.val) % 768 = c.val; omega
  | ⟨2, _⟩ => show ((b.val * 4096 + n.val) * 768 + c.val) / 49152 % 64 = n.val / 64; omega
  | ⟨3, _⟩ => show ((b.val * 4096 + n.val) * 768 + c.val) / 768 % 64 = n.val % 64; omega

/-- The sum of squares of the 768 channels at one position. -/
theorem sumsq_at (x0 : (⟨S16x768x64x64, .f32⟩ : BufTy).Contents (Elt Ideal)) (b : Fin 16) (n : Fin 4096) :
    val_main_call0_v1 (F := Ideal) x0 (ix2 b n) = ∑ c, zcol x0 b n c * zcol x0 b n c := by
  rw [val_main_call0_v1_apply, val_main_call0_cst_apply, Ideal.ofBits_def, Ideal.ofBits_zero_f32, zero_add]
  refine Finset.sum_congr rfl fun k _ => ?_
  have e : idx_main_call0_v1 (ix2 b n) k = ix3 b n k :=
    funext fun a => Fin.ext (by match a with | ⟨0, _⟩ => rfl | ⟨1, _⟩ => rfl | ⟨2, _⟩ => rfl)
  rw [val_main_call0_v0_apply, Ideal.mulf_def, e, v1_at]

/-- The guarded norm of the 768 channels at one position. -/
theorem v4_at (x0 : (⟨S16x768x64x64, .f32⟩ : BufTy).Contents (Elt Ideal)) (b : Fin 16) (n : Fin 4096) (z : Fin 1) :
    val_main_v4 (F := Ideal) x0 (ix3 b n z) = gnorm (zcol x0 b n) := by
  have e : idx_main_call0_v2 (ix3 b n z) = ix2 b n :=
    funext fun a => Fin.ext (by match a with | ⟨0, _⟩ => rfl | ⟨1, _⟩ => rfl)
  rw [val_main_v4_apply, val_main_v2_apply, val_main_call0_v2_apply, val_main_v3_apply, val_main_cst_apply, e, sumsq_at,
    Ideal.maximumf_def, Ideal.hostUnary_sqrt_def, Ideal.ofBits_def]
  rfl

/-- A normalized input channel. -/
theorem v6_at (x0 : (⟨S16x768x64x64, .f32⟩ : BufTy).Contents (Elt Ideal)) (b : Fin 16) (n : Fin 4096) (c : Fin 768) :
    val_main_v6 (F := Ideal) x0 (ix3 b n c) = unit (zcol x0 b n) c := by
  have e : idx_main_v5 (ix3 b n c) = ix3 b n (0 : Fin 1) :=
    funext fun a => Fin.ext (by match a with | ⟨0, _⟩ => rfl | ⟨1, _⟩ => rfl | ⟨2, _⟩ => rfl)
  rw [val_main_v6_apply, val_main_v5_apply, e, v4_at, v1_at, Ideal.hostDivf_def]
  rfl

/-- The sum of squares of one memory row. -/
theorem msumsq_at (x1 : (⟨S1024x768, .f32⟩ : BufTy).Contents (Elt Ideal)) (j : Fin 1024) :
    val_main_call1_v1 (F := Ideal) x1 (ix1 j) = ∑ c, x1 (ix2 j c) * x1 (ix2 j c) := by
  rw [val_main_call1_v1_apply, val_main_call1_cst_apply, Ideal.ofBits_def, Ideal.ofBits_zero_f32, zero_add]
  refine Finset.sum_congr rfl fun k _ => ?_
  have e : idx_main_call1_v1 (ix1 j) k = ix2 j k :=
    funext fun a => Fin.ext (by match a with | ⟨0, _⟩ => rfl | ⟨1, _⟩ => rfl)
  rw [val_main_call1_v0_apply, Ideal.mulf_def, e]

/-- The guarded norm of one memory row. -/
theorem v9_at (x1 : (⟨S1024x768, .f32⟩ : BufTy).Contents (Elt Ideal)) (j : Fin 1024) (z : Fin 1) :
    val_main_v9 (F := Ideal) x1 (ix2 j z) = gnorm (fun c' => x1 (ix2 j c')) := by
  have e : idx_main_call1_v2 (ix2 j z) = ix1 j :=
    funext fun a => Fin.ext (by match a with | ⟨0, _⟩ => rfl)
  rw [val_main_v9_apply, val_main_v7_apply, val_main_call1_v2_apply, val_main_v8_apply, val_main_cst_0_apply, e, msumsq_at,
    Ideal.maximumf_def, Ideal.hostUnary_sqrt_def, Ideal.ofBits_def]
  rfl

/-- A normalized memory entry, read channel-major. -/
theorem v11_at (x1 : (⟨S1024x768, .f32⟩ : BufTy).Contents (Elt Ideal)) (j : Fin 1024) (c : Fin 768) :
    val_main_v11 (F := Ideal) x1 (ix2 j c) = memN x1 c j := by
  have e : idx_main_v10 (ix2 j c) = ix2 j (0 : Fin 1) :=
    funext fun a => Fin.ext (by match a with | ⟨0, _⟩ => rfl | ⟨1, _⟩ => rfl)
  rw [val_main_v11_apply, val_main_v10_apply, e, v9_at, Ideal.hostDivf_def]
  rfl

/-- A score: the inner product of a normalized query with a normalized memory row. -/
theorem v12_at (x0 : (⟨S16x768x64x64, .f32⟩ : BufTy).Contents (Elt Ideal)) (x1 : (⟨S1024x768, .f32⟩ : BufTy).Contents (Elt Ideal))
    (b : Fin 16) (n : Fin 4096) (j : Fin 1024) :
    val_main_v12 (F := Ideal) x0 x1 (ix3 b n j) = scoreN (zcol x0 b n) (memN x1) j := by
  rw [val_main_v12_apply]
  unfold scoreN
  refine Finset.sum_congr rfl fun k _ => ?_
  have el : lidx_main_v12 (ix3 b n j) k = ix3 b n k :=
    funext fun a => Fin.ext (by match a with | ⟨0, _⟩ => rfl | ⟨1, _⟩ => rfl | ⟨2, _⟩ => rfl)
  have er : ridx_main_v12 (ix3 b n j) k = ix2 j k :=
    funext fun a => Fin.ext (by match a with | ⟨0, _⟩ => rfl | ⟨1, _⟩ => rfl)
  rw [el, er, v6_at, v11_at]

/-- The maximum of the 1024 scores of one query, as the reference's reduction computes it. -/
theorem v13_at (x0 : (⟨S16x768x64x64, .f32⟩ : BufTy).Contents (Elt Ideal)) (x1 : (⟨S1024x768, .f32⟩ : BufTy).Contents (Elt Ideal))
    (b : Fin 16) (n : Fin 4096) :
    val_main_v13 (F := Ideal) x0 x1 (ix2 b n) = rowMax (scoreN (zcol x0 b n) (memN x1)) := by
  have hR : S16x4096x1024.Reduces [2] S16x4096 := by decide
  have hl : ∀ k : Fin 1024, hR.lift (ix2 b n) k = ix3 b n k := fun k =>
    funext fun c => Fin.ext (by match c with | ⟨0, _⟩ => rfl | ⟨1, _⟩ => rfl | ⟨2, _⟩ => rfl)
  unfold val_main_v13
  rw [Host.reduce_eq_fold_single (FloatOps.maximumf (F := Ideal) (φ := .f32)) (val_main_v12 (F := Ideal) x0 x1) _
    reducesTo_S16x4096x1024_S16x4096_d2 hR h_S_]
  unfold rowMax
  show (Finset.univ : Finset (Fin 1024)).fold max (Ideal.ofBits .f32 0xFF800000#32)
    (fun k : Fin 1024 => val_main_v12 (F := Ideal) x0 x1 (hR.lift (ix2 b n) k)) = _
  refine Finset.fold_congr fun k _ => ?_
  rw [hl, v12_at]

/-- The reference's extra maximum with the starting value changes nothing. -/
theorem v15_at (x0 : (⟨S16x768x64x64, .f32⟩ : BufTy).Contents (Elt Ideal)) (x1 : (⟨S1024x768, .f32⟩ : BufTy).Contents (Elt Ideal))
    (b : Fin 16) (n : Fin 4096) :
    val_main_v15 (F := Ideal) x0 x1 (ix2 b n) = rowMax (scoreN (zcol x0 b n) (memN x1)) := by
  rw [val_main_v15_apply, val_main_v14_apply, val_main_cst_2_apply, v13_at, Ideal.maximumf_def, Ideal.ofBits_def]
  exact max_fold_max_self _ _ _

/-- The exponential of a score shifted by the row maximum. -/
theorem v19_at (x0 : (⟨S16x768x64x64, .f32⟩ : BufTy).Contents (Elt Ideal)) (x1 : (⟨S1024x768, .f32⟩ : BufTy).Contents (Elt Ideal))
    (b : Fin 16) (n : Fin 4096) (j : Fin 1024) :
    val_main_v19 (F := Ideal) x0 x1 (ix3 b n j)
      = Ideal.exp (scoreN (zcol x0 b n) (memN x1) j - rowMax (scoreN (zcol x0 b n) (memN x1))) := by
  have e17 : idx_main_v17 (ix3 b n j) = ix3 b n (0 : Fin 1) :=
    funext fun a => Fin.ext (by match a with | ⟨0, _⟩ => rfl | ⟨1, _⟩ => rfl | ⟨2, _⟩ => rfl)
  have e16 : idx_main_v16 (ix3 b n (0 : Fin 1)) = ix2 b n :=
    funext fun a => Fin.ext (by match a with | ⟨0, _⟩ => rfl | ⟨1, _⟩ => rfl)
  rw [val_main_v19_apply, val_main_v18_apply, val_main_v17_apply, e17, val_main_v16_apply, e16, v15_at, v12_at,
    Ideal.hostUnary_exp_def, Ideal.subf_def]

/-- The softmax denominator of one query. -/
theorem v20_at (x0 : (⟨S16x768x64x64, .f32⟩ : BufTy).Contents (Elt Ideal)) (x1 : (⟨S1024x768, .f32⟩ : BufTy).Contents (Elt Ideal))
    (b : Fin 16) (n : Fin 4096) :
    val_main_v20 (F := Ideal) x0 x1 (ix2 b n)
      = ∑ k, Ideal.exp (scoreN (zcol x0 b n) (memN x1) k - rowMax (scoreN (zcol x0 b n) (memN x1))) := by
  rw [val_main_v20_apply, val_main_cst_3_apply, Ideal.ofBits_def, Ideal.ofBits_zero_f32, zero_add]
  refine Finset.sum_congr rfl fun k _ => ?_
  have e : idx_main_v20 (ix2 b n) k = ix3 b n k :=
    funext fun a => Fin.ext (by match a with | ⟨0, _⟩ => rfl | ⟨1, _⟩ => rfl | ⟨2, _⟩ => rfl)
  rw [e, v19_at]

/-- An attention weight. -/
theorem v23_at (x0 : (⟨S16x768x64x64, .f32⟩ : BufTy).Contents (Elt Ideal)) (x1 : (⟨S1024x768, .f32⟩ : BufTy).Contents (Elt Ideal))
    (b : Fin 16) (n : Fin 4096) (j : Fin 1024) :
    val_main_v23 (F := Ideal) x0 x1 (ix3 b n j) = attnN (zcol x0 b n) (memN x1) j := by
  have e22 : idx_main_v22 (ix3 b n j) = ix3 b n (0 : Fin 1) :=
    funext fun a => Fin.ext (by match a with | ⟨0, _⟩ => rfl | ⟨1, _⟩ => rfl | ⟨2, _⟩ => rfl)
  have e21 : idx_main_v21 (ix3 b n (0 : Fin 1)) = ix2 b n :=
    funext fun a => Fin.ext (by match a with | ⟨0, _⟩ => rfl | ⟨1, _⟩ => rfl)
  rw [val_main_v23_apply, val_main_v22_apply, e22, val_main_v21_apply, e21, v20_at, v19_at, Ideal.hostDivf_def]
  rfl

/-- The reference's attention weights are the specification's, index by index. -/
theorem attn_eq (x0 : (⟨S16x768x64x64, .f32⟩ : BufTy).Contents (Elt Ideal)) (x1 : (⟨S1024x768, .f32⟩ : BufTy).Contents (Elt Ideal)) :
    Read.val_main_v23 (F := Ideal) x0 x1 = Cert.Attention.attnArr x0 x1 := by
  funext i
  obtain ⟨b, n, j, rfl⟩ : ∃ (b : Fin 16) (n : Fin 4096) (j : Fin 1024), i = ix3 b n j := ⟨i 0, i 1, i 2, eq_ix3 i⟩
  rw [v23_at]
  rfl

/-- Channel `c` of the reconstruction at one position: the attention-weighted sum of the raw memory entries. -/
theorem v24_at (x0 : (⟨S16x768x64x64, .f32⟩ : BufTy).Contents (Elt Ideal)) (x1 : (⟨S1024x768, .f32⟩ : BufTy).Contents (Elt Ideal))
    (b : Fin 16) (n : Fin 4096) (c : Fin 768) :
    val_main_v24 (F := Ideal) x0 x1 (ix3 b n c) = reconN (zcol x0 b n) (memN x1) (memT x1) c := by
  rw [val_main_v24_apply]
  unfold reconN
  refine Finset.sum_congr rfl fun k _ => ?_
  have el : lidx_main_v24 (ix3 b n c) k = ix3 b n k :=
    funext fun a => Fin.ext (by match a with | ⟨0, _⟩ => rfl | ⟨1, _⟩ => rfl | ⟨2, _⟩ => rfl)
  have er : ridx_main_v24 (ix3 b n c) k = ix2 k c :=
    funext fun a => Fin.ext (by match a with | ⟨0, _⟩ => rfl | ⟨1, _⟩ => rfl)
  rw [el, er, v23_at, mul_comm]
  rfl

/-- The reference's reconstruction is the specification's, index by index: position (h, w) is flattened position h·64 + w. -/
theorem recon_eq (x0 : (⟨S16x768x64x64, .f32⟩ : BufTy).Contents (Elt Ideal)) (x1 : (⟨S1024x768, .f32⟩ : BufTy).Contents (Elt Ideal)) :
    Read.val_main_v26 (F := Ideal) x0 x1 = Cert.Attention.reconArr x0 x1 := by
  funext i
  obtain ⟨b, c, h, w, rfl⟩ : ∃ (b : Fin 16) (c : Fin 768) (h : Fin 64) (w : Fin 64), i = ix4 b c h w :=
    ⟨i 0, i 1, i 2, i 3, eq_ix4 i⟩
  have hb := b.isLt; have hc := c.isLt; have hh := h.isLt; have hw := w.isLt
  have e : idx_main_v25 (idx_main_v26 (ix4 b c h w)) = ix3 b (⟨h.val * 64 + w.val, by omega⟩ : Fin 4096) c :=
    funext fun a => Fin.ext (by
      match a with
      | ⟨0, _⟩ => show (((b.val * 64 + h.val) * 64 + w.val) * 768 + c.val) / 3145728 = b.val; omega
      | ⟨1, _⟩ => show (((b.val * 64 + h.val) * 64 + w.val) * 768 + c.val) / 768 % 4096 = h.val * 64 + w.val; omega
      | ⟨2, _⟩ => show (((b.val * 64 + h.val) * 64 + w.val) * 768 + c.val) % 768 = c.val; omega)
  rw [val_main_v26_apply, val_main_v25_apply, e, v24_at]
  rfl

end Cert.ReferenceIdeal.RefValue

end
-- ==== Proof.lean ====
/-
  The kernel program and its reference compute the same cosine-similarity memory attention.

  Every position's 768 channels are divided by their guarded Euclidean norm, scored against the 1024 normalized memory
  rows, the scores turned into attention weights by a softmax, and the raw memory rows averaged with those weights.
  The kernel does this block by block over channel-major arrays, the reference over one position-major array; read
  entry by entry both results are the same two functions of the two arguments (the attention array and the
  reconstruction of `Proof/Spec.lean`).  Nothing in the comparison needs the inputs finite: the two programs apply the
  same operations to the same extended reals, up to the order of commutative sums and products, and a maximum with
  minus infinity that changes nothing.

  The three frames: the two kernel programs' are their proved frame runs; the reference's is its run with the results
  dropped.  The idealization rewrote no operation, so nothing is owed for it.
-/
import proofs.«121419_j54099408060744_2_alg».proof.Defs
import proofs.«121419_j54099408060744_2_alg».proof.Proof.Gen.Kernel
import proofs.«121419_j54099408060744_2_alg».proof.Proof.Gen.Kernel.Skeleton
import proofs.«121419_j54099408060744_2_alg».proof.Proof.Gen.Kernel.Launch
import proofs.«121419_j54099408060744_2_alg».proof.Proof.Gen.Kernel.Points
import proofs.«121419_j54099408060744_2_alg».proof.Proof.Gen.Kernel.Frame
import proofs.«121419_j54099408060744_2_alg».proof.Proof.Gen.KernelIdeal
import proofs.«121419_j54099408060744_2_alg».proof.Proof.Gen.KernelIdeal.Skeleton
import proofs.«121419_j54099408060744_2_alg».proof.Proof.Gen.KernelIdeal.Launch
import proofs.«121419_j54099408060744_2_alg».proof.Proof.Gen.KernelIdeal.Points
import proofs.«121419_j54099408060744_2_alg».proof.Proof.Gen.KernelIdeal.Frame
import proofs.«121419_j54099408060744_2_alg».proof.Proof.Gen.ReferenceIdeal
import proofs.«121419_j54099408060744_2_alg».proof.Proof.Gen.Pre_finite_inputs
import proofs.«121419_j54099408060744_2_alg».proof.Proof.Gen.ReferenceIdeal.Run
import proofs.«121419_j54099408060744_2_alg».proof.Proof.Gen.ReferenceIdeal.Read
import proofs.«121419_j54099408060744_2_alg».proof.Proof.KernelRun
import proofs.«121419_j54099408060744_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with what it says about the results dropped. -/
theorem frame_referenceIdeal : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- The idealization rewrote nothing. -/
theorem preserves : Cert.preserves_Kernel_KernelIdeal := trivial

/-- Both programs end with the reconstruction and the attention array of the specification, of arguments that agree. -/
theorem algebraic : Cert.algebraic_KernelIdeal_ReferenceIdeal := by
  intro m ρ m' ρ' _ hagree
  refine ⟨_, _, Cert.KernelIdeal.Run.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v26_eq, Cert.ReferenceIdeal.RefValue.recon_eq, (hagree c).1, (hagree c).2]
  · rw [(h c).2.1, Cert.ReferenceIdeal.Read.val_main_v23_eq, Cert.ReferenceIdeal.RefValue.attn_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
